-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x128 : Shape := ⟨3, ![2, 16384, 128]⟩
abbrev S_ : Shape := ⟨0, ![]⟩

class Facts : Prop where
  bcast_S_S2x16384x128 : S_.BroadcastsInDim S2x16384x128 (![] : Fin 0 → Fin S2x16384x128.rank)
  reducesTo_S2x16384x128_S_d0_1_2 : S2x16384x128.ReducesTo [0, 1, 2] S_
  h_S_ : 0 < S_.numel

variable [Facts]

def fn {F : FTy → Type} [FloatOps F] (main_arg0 : FVec F S2x16384x128 .f32) : IVec S_ 1 :=
  let main_v0 : FVec F S2x16384x128 .f32 := Host.absf main_arg0
  let main_cst : FVec F S_ .f32 := constant S_ .f32 0x7F800000#32
  let main_v1 : FVec F S2x16384x128 .f32 := broadcastInDim S2x16384x128 ![] bcast_S_S2x16384x128 main_cst
  let main_v2 : IVec S2x16384x128 1 := cmpf .olt main_v0 main_v1
  let main_c : IVec S_ 1 := constantI S_ 1 1#1
  let main_v3 : IVec S_ 1 := (fun x v => Host.reduce IntOp.andi x v reducesTo_S2x16384x128_S_d0_1_2 h_S_) main_v2 main_c
  main_v3
-- ==== Kernel.lean ====
abbrev S2x16384x128 : Shape := ⟨3, ![2, 16384, 128]⟩
abbrev S16384x128 : Shape := ⟨2, ![16384, 128]⟩
abbrev S16384 : Shape := ⟨1, ![16384]⟩
abbrev S2x4096x128 : Shape := ⟨3, ![2, 4096, 128]⟩
abbrev S4096x128 : Shape := ⟨2, ![4096, 128]⟩
abbrev S4096 : Shape := ⟨1, ![4096]⟩
abbrev S1x4096x128 : Shape := ⟨3, ![1, 4096, 128]⟩
abbrev S4096x1 : Shape := ⟨2, ![4096, 1]⟩
abbrev S1024x128 : Shape := ⟨2, ![1024, 128]⟩
abbrev S2048x128 : Shape := ⟨2, ![2048, 128]⟩
abbrev S1024 : Shape := ⟨1, ![1024]⟩
abbrev S128x2048 : Shape := ⟨2, ![128, 2048]⟩
abbrev S1024x2048 : Shape := ⟨2, ![1024, 2048]⟩
abbrev S_ : Shape := ⟨0, ![]⟩

abbrev nBuf : Space → Nat
  | .hbm => 10
  | .vmem => 14
  | .smem => 0
  | _ => 0

abbrev bufTy : (tb : Table) → Fin (tcTables nBuf tb) → BufTy
  | .hbm, ⟨0, _⟩ => ⟨S2x16384x128, .f32⟩
  | .hbm, ⟨1, _⟩ => ⟨S16384x128, .bf16⟩
  | .hbm, ⟨2, _⟩ => ⟨S16384x128, .bf16⟩
  | .hbm, ⟨3, _⟩ => ⟨S16384, .f32⟩
  | .hbm, ⟨4, _⟩ => ⟨S16384, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2x4096x128, .f32⟩
  | .local _ .vmem, ⟨1, _⟩ => ⟨S2x4096x128, .f32⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096, .f32⟩
  | .local _ .vmem, ⟨7, _⟩ => ⟨S4096, .f32⟩
  | .local _ .vmem, ⟨8, _⟩ => ⟨S1024x128, .bf16⟩
  | .local _ .vmem, ⟨9, _⟩ => ⟨S1024x128, .bf16⟩
  | .local _ .vmem, ⟨10, _⟩ => ⟨S2048x128, .bf16⟩
  | .local _ .vmem, ⟨11, _⟩ => ⟨S2048x128, .bf16⟩
  | .local _ .vmem, ⟨12, _⟩ => ⟨S1024, .f32⟩
  | .local _ .vmem, ⟨13, _⟩ => ⟨S1024, .f32⟩
  | _, _ => ⟨S2x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2x4096x128_S1x4096x128_0_0_0 : ∀ a, (![0, 0, 0] : Fin 3 → Nat) a + S1x4096x128.size a ≤ S2x4096x128.size a
  h_S1x4096x128 : 0 < S1x4096x128.numel
  shapeCasts_S1x4096x128_S4096x128 : S1x4096x128.ShapeCasts S4096x128
  inb_S2x4096x128_S1x4096x128_1_0_0 : ∀ a, (![1, 0, 0] : Fin 3 → Nat) a + S1x4096x128.size a ≤ S2x4096x128.size a
  reduces_S4096x128_S4096 : S4096x128.Reduces [1] S4096
  shapeCasts_S4096_S4096x1 : S4096.ShapeCasts S4096x1
  broadcasts_S4096x1_S4096x128 : S4096x1.Broadcasts S4096x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  packedbf16_S4096x128_S4096x128_0_0 : (Rect.unit (s := S4096x128) ![0, 0] S4096x128.size inb_S4096x128_S4096x128_0_0).PackedRows (EltTy.packing .bf16)
  inb_S4096_S4096_0 : ∀ a, (![0] : Fin 1 → Nat) a + S4096.size a ≤ S4096.size a
  h_S4096 : 0 < S4096.numel
  inb_S1024_S1024_0 : ∀ a, (![0] : Fin 1 → Nat) a + S1024.size a ≤ S1024.size a
  h_S1024 : 0 < S1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  transposes_S2048x128_p1_0_S128x2048 : S2048x128.Transposes [1, 0] S128x2048
  shapeCasts_S1024_S1024 : S1024.ShapeCasts S1024
  reduces_S1024x2048_S1024 : S1024x2048.Reduces [1] S1024
  reducesTo_S16384_S_d0 : S16384.ReducesTo [0] S_
  h_S_ : 0 < S_.numel
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x128.size a ≤ S2x16384x128.size a
  hwx0_0 : ∀ i : grid0.Coords, EltTy.bits .f32 = 32 ∨ (Rect.block (s := S2x16384x128) S2x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .bf16 = 32 ∨ (Rect.block (s := S16384x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S16384x128.size a
  hwx0_2 : ∀ i : grid0.Coords, EltTy.bits .bf16 = 32 ∨ (Rect.block (s := S16384x128) S4096x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S16384.size a
  hwx0_3 : ∀ i : grid0.Coords, EltTy.bits .f32 = 32 ∨ (Rect.block (s := S16384) S4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .bf16 = 32 ∨ (Rect.block (s := S16384x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .bf16 = 32 ∨ (Rect.block (s := S16384x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S16384.size a
  hwx1_2 : ∀ i : grid1.Coords, EltTy.bits .f32 = 32 ∨ (Rect.block (s := S16384) S1024.size (cc1_transform_2 i) (hinb1_2 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S2x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4096x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S4096x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x16384x128 : Shape := ⟨3, ![2, 16384, 128]⟩
abbrev S1x16384x128 : Shape := ⟨3, ![1, 16384, 128]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S16384x16384 : Shape := ⟨2, ![16384, 16384]⟩

abbrev nBuf : Space → Nat
  | .hbm => 44
  | .vmem => 0
  | .smem => 0
  | _ => 0

abbrev bufTy : (tb : Table) → Fin (tcTables nBuf tb) → BufTy
  | .hbm, ⟨0, _⟩ => ⟨S2x16384x128, .f32⟩
  | .hbm, ⟨1, _⟩ => ⟨S1x16384x128, .f32⟩
  | .hbm, ⟨2, _⟩ => ⟨S16384x128, .f32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x128, .f32⟩
  | .hbm, ⟨12, _⟩ => ⟨S16384x128, .f32⟩
  | .hbm, ⟨13, _⟩ => ⟨S1x16384x128, .f32⟩
  | .hbm, ⟨14, _⟩ => ⟨S16384x128, .f32⟩
  | .hbm, ⟨15, _⟩ => ⟨S16384x128, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S16384x16384, .f32⟩
  | .hbm, ⟨33, _⟩ => ⟨S_, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S_, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S_, .f32⟩
  | .hbm, ⟨43, _⟩ => ⟨S_, .f32⟩
  | _, _ => ⟨S2x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  slices_S2x16384x128_S1x16384x128_0_0_0 : S2x16384x128.Slices ![0, 0, 0] S1x16384x128
  shapeCasts_S1x16384x128_S16384x128 : S1x16384x128.ShapeCasts S16384x128
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  slices_S2x16384x128_S1x16384x128_1_0_0 : S2x16384x128.Slices ![1, 0, 0] S1x16384x128
  bcast_S_S16384 : S_.BroadcastsInDim S16384 (![] : Fin 0 → Fin S16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x128_S16384x128_S16384x16384_1_1_0_0_n_n_wf : DotDims.WF S16384x128 S16384x128 S16384x16384 [1] [1] [0] [0] [] []

variable [Facts₀]

def dot_S16384x128_S16384x128_S16384x16384_1_1_0_0_n_n : DotDims S16384x128 S16384x128 S16384x16384 where
  lhsContracting := [1]
  rhsContracting := [1]
  lhsNonContracting := [0]
  rhsNonContracting := [0]
  lhsBatch := []
  rhsBatch := []
  wf := dot_S16384x128_S16384x128_S16384x16384_1_1_0_0_n_n_wf

class Facts : Prop extends Facts₀ where

variable [Facts]
-- ==== Proof.KernelRun.lean ====
/-
  The kernel program's run, with its result named.

  The program is two kernel regions followed by five host operations. After them every buffer holds the fold of the boundaries' contents
  (`W3`): the host operations applied to what the second region leaves (`W2`), which is what the first region leaves (`W1`) with the second
  region's arrays overwritten by its write-backs. Every weakly fair execution terminates with the result buffer at `W3`'s contents there
  and the argument as launched (`run_named`).
-/
import proofs.«177591_j62732292325787_1_alg».proof.Proof.Gen.KernelIdeal.Frame

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's contents
    and the argument as launched. -/
theorem run_named : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5 (by decide)),
        (h c _ (mem_uc main_arg0 (by decide))).trans (W3_main_arg0 m ρ c)⟩)

end Cert.KernelIdeal.Loss

end
-- ==== Proof.Spec.lean ====
/-
  The contrastive loss, as functions on the extended reals.

  The argument is one array `x` of two halves, each 16384 rows of 128 entries. A row is divided by the larger of its
  Euclidean length and a small constant `eps`; `unitRow x s r d` is entry `d` of row `r` of half `s` after that division.
  For two arrays `a`, `b` of 16384 rows of 128 entries, `rowDot a b r k` is the inner product of row `r` of `a` with row `k` of
  `b`, `posOf a b r` the exponential of `invTemp` times the inner product of the two rows with the SAME number `r`, and
  `ttlOf a b r` the sum, over every row `k` of `b`, of the exponential of `invTemp` times `rowDot a b r k`. The loss is minus the sum over
  `r` of `log (pos r / ttl r)` at `a`, `b` the two divided halves of `x`.

  `invTemp` is the rational 67108864/13421773: the reciprocal of 13421773/67108864, which is the value of the single-precision word
  `0x3E4CCCCD` (the nearest single-precision number to 0.2). Dividing an extended real by that word's value is multiplying it by
  `invTemp` (`div_temp`): division by a nonzero real is multiplication by its reciprocal on every extended real, the infinities included.
-/
import Idealize.ShloMosaic.PureOps.Ideal
import Idealize.ShloMosaic.PureOps.Ideal.Laws
import Idealize.ShloMosaic.Lib.ValueIdx

noncomputable section

namespace Cert.Contrast

open Idealize.ShloMosaic Idealize.ShloMosaic.ValueIdx

/-- The argument's shape: two halves of 16384 rows of 128 entries. -/
abbrev SX : Shape := ⟨3, ![2, 16384, 128]⟩
/-- 16384 rows of 128 entries. -/
abbrev SRows : Shape := ⟨2, ![16384, 128]⟩
/-- One entry per row. -/
abbrev SCol : Shape := ⟨1, ![16384]⟩

/-- The floor under a row's length: the value of the word both programs spell. -/
def eps : EReal := Ideal.ofBits .f32 0x2B8CBCCC#32

/-- The reciprocal of the temperature, as the exact rational 67108864/13421773. -/
def invTemp : EReal := ((67108864 / 13421773 : ℝ) : EReal)

/-- The sum of the squares of row `r` of half `s`. -/
def sumSq (x : SX.Idx → EReal) (s : Fin 2) (r : Fin 16384) : EReal :=
  ∑ d : Fin 128, x (ix3 s r d) * x (ix3 s r d)

/-- What a row is divided by: its length, or `eps` if that is larger. -/
def rowDen (x : SX.Idx → EReal) (s : Fin 2) (r : Fin 16384) : EReal :=
  max (Ideal.sqrt (sumSq x s r)) eps

/-- Entry `d` of row `r` of half `s`, divided by `rowDen`. -/
def unitRow (x : SX.Idx → EReal) (s : Fin 2) (r : Fin 16384) (d : Fin 128) : EReal :=
  Ideal.div (x (ix3 s r d)) (rowDen x s r)

/-- Half `s` with every row divided, as an array of 16384 rows of 128 entries. -/
def unitArr (x : SX.Idx → EReal) (s : Fin 2) : SRows.Idx → EReal :=
  fun j => unitRow x s (j 0) (j 1)

/-- The inner product of row `r` of `a` with row `k` of `b`. -/
def rowDot (a b : SRows.Idx → EReal) (r k : Fin 16384) : EReal :=
  ∑ d : Fin 128, a (ix2 r d) * b (ix2 k d)

/-- The positive pair's term of row `r`. -/
def posOf (a b : SRows.Idx → EReal) : SCol.Idx → EReal :=
  fun j => Ideal.exp (rowDot a b (j 0) (j 0) * invTemp)

/-- The denominator of row `r`: the sum over every row `k` of `b`. -/
def ttlOf (a b : SRows.Idx → EReal) : SCol.Idx → EReal :=
  fun j => ∑ k : Fin 16384, Ideal.exp (rowDot a b (j 0) k * invTemp)

/-- The two arrays of the loss, as functions of the argument. -/
def posArr (x : SX.Idx → EReal) : SCol.Idx → EReal := posOf (unitArr x 0) (unitArr x 1)
def ttlArr (x : SX.Idx → EReal) : SCol.Idx → EReal := ttlOf (unitArr x 0) (unitArr x 1)

theorem unitArr_ix2 (x : SX.Idx → EReal) (s : Fin 2) (r : Fin 16384) (d : Fin 128) :
    unitArr x s (ix2 r d) = unitRow x s r d := rfl

theorem posOf_ix1 (a b : SRows.Idx → EReal) (r : Fin 16384) :
    posOf a b (ix1 r) = Ideal.exp (rowDot a b r r * invTemp) := rfl

theorem ttlOf_ix1 (a b : SRows.Idx → EReal) (r : Fin 16384) :
    ttlOf a b (ix1 r) = ∑ k : Fin 16384, Ideal.exp (rowDot a b r k * invTemp) := rfl

/-- The single-precision word nearest 0.2 is the rational 13421773/67108864. -/
theorem word_temp : Ideal.ofBits .f32 0x3E4CCCCD#32 = ((13421773 / 67108864 : ℝ) : EReal) := by
  simp [Ideal.ofBits, Ideal.ieee, -EReal.coe_mul]; norm_num

/-- Dividing by that word's value is multiplying by `invTemp`, on every extended real. -/
theorem div_temp (s : EReal) : Ideal.div s (Ideal.ofBits .f32 0x3E4CCCCD#32) = s * invTemp := by
  rw [word_temp, Ideal.div_coe (by norm_num : (13421773 / 67108864 : ℝ) ≠ 0)]
  unfold invTemp
  congr 2
  norm_num

end Cert.Contrast

end
-- ==== Proof.Normalize.lean ====
/-
  The first of the program's two kernels, read as mathematics.

  The argument is an array of two halves, each 16384 rows of 128 entries. The kernel visits the rows in four blocks of
  4096. On each block it divides every row of either half by the larger of the row's Euclidean length and `eps`, and it
  forms, row by row, the exponential of `invTemp` times the inner product of the two divided rows with the same number.
  It leaves three arrays: the two divided halves and the column of those exponentials.

  Here: what the block's arithmetic gives at one entry (a lane sum is a sum over the 128 entries of a row; a column
  spread over the lanes reads the row's one entry; storing in a narrower format changes no extended real); a block is
  the rows `4096 t … 4096 t + 4095` of the array; so every block written is the block of one function of the argument
  (`Cert.Contrast.unitArr`, `Cert.Contrast.posArr`); the four blocks cover the 16384 rows, hence the three arrays are
  those functions.
-/
import proofs.«177591_j62732292325787_1_alg».proof.Proof.Gen.KernelIdeal.Frame
import proofs.«177591_j62732292325787_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Norm

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

/-! ## The body's arithmetic, entry by entry

A block of one half is 4096 rows of 128 entries behind a leading axis of length one. Every statement here is about
an arbitrary such block, read at row `p` and lane `q`. -/

/-- The sum along the lanes of a 4096 × 128 array, at row `p`, is the sum of that row's 128 entries. -/
theorem laneSum_apply (x : FVec Ideal S4096x128 .f32) (hφ : FKind.Formats .f32)
    (hacc : (0x00000000#32 : BitVec 32) = 0x00000000#32) (p : Fin 4096) :
    multiReduction (F := Ideal) .add [1] S4096 x 0x00000000#32 reduces_S4096x128_S4096 hφ hacc (ix1 p)
      = ∑ d : Fin 128, x (ix2 p d) := by
  refine (Ideal.multiReduction_add_single x 0x00000000#32 reduces_S4096x128_S4096 hφ hacc (ix1 p)).trans ?_
  refine Finset.sum_congr rfl fun d _ => congrArg x ?_
  funext a
  apply Fin.ext
  match a with
  | ⟨0, _⟩ => rfl
  | ⟨1, _⟩ => rfl

/-- A column of 4096 entries viewed as 4096 rows of one entry reads, at `(p, u)`, entry `p`. -/
theorem column_apply {α : Type} (x : S4096.Idx → α) (p : Fin 4096) (u : Fin 1) :
    shapeCast S4096x1 x shapeCasts_S4096_S4096x1 (ix2 p u) = x (ix1 p) :=
  shapeCast_apply x _ _ _ (by
    have hu : u.val = 0 := by omega
    rw [Shape.rowMajor_val_two, Shape.rowMajor_val_one]
    show p.val = p.val * 1 + u.val
    rw [hu, Nat.mul_one, Nat.add_zero])

/-- 4096 rows of one entry spread over 128 lanes read, at `(p, q)`, row `p`'s one entry. -/
theorem spread_apply {α : Type} (x : S4096x1.Idx → α) (p : Fin 4096) (q : Fin 128) :
    broadcastTo S4096x128 x broadcasts_S4096x1_S4096x128 (ix2 p q) = x (ix2 p (0 : Fin 1)) := by
  refine broadcastTo_apply x _ (ix2 p q) (ix2 p (0 : Fin 1)) fun ax => ?_
  match ax with
  | ⟨0, _⟩ => rfl
  | ⟨1, _⟩ => rfl

/-- The square root and the exponential of an array, entry by entry. -/
theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl

/-- ENTRY `(p, q)` OF A BLOCK AFTER THE DIVISION: the entry over the larger of its row's Euclidean length and `eps`. -/
theorem pay1_apply (v0 : Vec Ideal S1x4096x128 .f32) (p : Fin 4096) (q : Fin 128) :
    k0_pay1 v0 (ix2 p q)
      = Ideal.div (v0 (ix3 0 p q))
          (max (Ideal.sqrt (∑ d : Fin 128, v0 (ix3 0 p d) * v0 (ix3 0 p d))) Cert.Contrast.eps) := by
  unfold k0_pay1
  dsimp only
  rw [divf_apply, spread_apply, maximumf_apply, sqrt_apply, column_apply, laneSum_apply, shapeCast_1ab_ab_apply]
  refine congrArg (Ideal.div _) (congrArg₂ max (congrArg Ideal.sqrt (Finset.sum_congr rfl fun d _ => ?_)) rfl)
  rw [mulf_apply, shapeCast_1ab_ab_apply]

/-- The same for the other half's block. -/
theorem pay2_apply (v2 : Vec Ideal S1x4096x128 .f32) (p : Fin 4096) (q : Fin 128) :
    k0_pay2 v2 (ix2 p q)
      = Ideal.div (v2 (ix3 0 p q))
          (max (Ideal.sqrt (∑ d : Fin 128, v2 (ix3 0 p d) * v2 (ix3 0 p d))) Cert.Contrast.eps) := by
  unfold k0_pay2
  dsimp only
  rw [divf_apply, spread_apply, maximumf_apply, sqrt_apply, column_apply, laneSum_apply, shapeCast_1ab_ab_apply]
  refine congrArg (Ideal.div _) (congrArg₂ max (congrArg Ideal.sqrt (Finset.sum_congr rfl fun d _ => ?_)) rfl)
  rw [mulf_apply, shapeCast_1ab_ab_apply]

/-- What is stored for each half is the divided block itself: narrowing the format changes no extended real. -/
theorem pay4_apply (v0 : Vec Ideal S1x4096x128 .f32) (j : S4096x128.Idx) : k0_pay4 v0 j = k0_pay1 v0 j := rfl
theorem pay5_apply (v2 : Vec Ideal S1x4096x128 .f32) (j : S4096x128.Idx) : k0_pay5 v2 j = k0_pay2 v2 j := rfl

/-- The named scalar of the body is the reciprocal of the temperature. -/
theorem invTemp_eq : Named.named (F := Ideal) Cert.KernelIdeal.κ "inv_temp" (φ := .f32) 0x40A00000#32 = Cert.Contrast.invTemp :=
  IdealRules.named_const.ideal_named_scalar Cert.KernelIdeal.κ "inv_temp" (φ := .f32) 0x40A00000#32 _ rfl

/-- ENTRY `p` OF THE THIRD RESULT: the exponential of `invTemp` times the inner product of the two divided rows `p`. -/
theorem pay3_apply (v0 v2 : Vec Ideal S1x4096x128 .f32) (p : Fin 4096) :
    k0_pay3 v0 v2 (ix1 p)
      = Ideal.exp ((∑ d : Fin 128, k0_pay1 v0 (ix2 p d) * k0_pay2 v2 (ix2 p d)) * Cert.Contrast.invTemp) := by
  unfold k0_pay3
  dsimp only
  rw [exp_apply, mulf_apply, laneSum_apply, broadcast_apply, invTemp_eq]
  rfl

/-! ## A block is a run of 4096 consecutive rows

The statements of this section are about two arrays `v0`, `v2` of 4096 rows (behind an axis of length one) that are
rows `4096 tv … 4096 tv + 4095` of the first and of the second half of an array `A` of two halves of 16384 rows. -/

/-- Row `p` of the block number `tv` is row `4096 tv + p` of the whole array. -/
abbrev rowAt (tv : Nat) (htv : tv < 4) (p : Fin 4096) : Fin 16384 := ⟨4096 * tv + p.val, by omega⟩

section Restriction

variable (v0 v2 : Vec Ideal S1x4096x128 .f32) (A : Cert.Contrast.SX.Idx → EReal) (tv : Nat) (htv : tv < 4)
  (h0 : ∀ (p : Fin 4096) (d : Fin 128), v0 (ix3 (0 : Fin 1) p d) = A (ix3 (0 : Fin 2) (rowAt tv htv p) d))
  (h2 : ∀ (p : Fin 4096) (d : Fin 128), v2 (ix3 (0 : Fin 1) p d) = A (ix3 (1 : Fin 2) (rowAt tv htv p) d))

include h0 in
/-- The divided first block is rows `4096 tv + p` of the divided first half of the array. -/
theorem unit0_of_block (p : Fin 4096) (q : Fin 128) :
    k0_pay1 v0 (ix2 p q) = Cert.Contrast.unitArr A 0 (ix2 (rowAt tv htv p) q) := by
  rw [pay1_apply, Cert.Contrast.unitArr_ix2]
  unfold Cert.Contrast.unitRow Cert.Contrast.rowDen Cert.Contrast.sumSq
  simp only [h0]

include h2 in
/-- The divided second block is rows `4096 tv + p` of the divided second half of the array. -/
theorem unit1_of_block (p : Fin 4096) (q : Fin 128) :
    k0_pay2 v2 (ix2 p q) = Cert.Contrast.unitArr A 1 (ix2 (rowAt tv htv p) q) := by
  rw [pay2_apply, Cert.Contrast.unitArr_ix2]
  unfold Cert.Contrast.unitRow Cert.Contrast.rowDen Cert.Contrast.sumSq
  simp only [h2]

include h0 h2 in
/-- The blocks' column of exponentials is entries `4096 tv + p` of the array's. -/
theorem pos_of_block (p : Fin 4096) :
    k0_pay3 v0 v2 (ix1 p) = Cert.Contrast.posArr A (ix1 (rowAt tv htv p)) := by
  rw [pay3_apply]
  unfold Cert.Contrast.posArr
  rw [Cert.Contrast.posOf_ix1]
  unfold Cert.Contrast.rowDot
  refine congrArg Ideal.exp (congrArg (· * Cert.Contrast.invTemp) (Finset.sum_congr rfl fun d _ => ?_))
  rw [unit0_of_block v0 A tv htv h0 p d, unit1_of_block v2 A tv htv h2 p d]

end Restriction

/-- The first half of an array of two halves, read at `(0, p, d)`, is the array at `(0, p, d)`. -/
theorem ld_half0 (X : Vec Ideal S2x4096x128 .f32) (p : Fin 4096) (d : Fin 128) :
    (View.ld X r0_0 : Vec Ideal S1x4096x128 .f32) (ix3 (0 : Fin 1) p d) = X (ix3 (0 : Fin 2) p d) := by
  show X _ = X _
  refine congrArg X (funext fun a => Fin.ext ?_)
  match a with
  | ⟨0, _⟩ => rfl
  | ⟨1, _⟩ => show 0 + 1 * p.val = p.val; omega
  | ⟨2, _⟩ => show 0 + 1 * d.val = d.val; omega

/-- The second half, read at `(0, p, d)`, is the array at `(1, p, d)`. -/
theorem ld_half1 (X : Vec Ideal S2x4096x128 .f32) (p : Fin 4096) (d : Fin 128) :
    (View.ld X r0_1 : Vec Ideal S1x4096x128 .f32) (ix3 (0 : Fin 1) p d) = X (ix3 (1 : Fin 2) p d) := by
  show X _ = X _
  refine congrArg X (funext fun a => Fin.ext ?_)
  match a with
  | ⟨0, _⟩ => rfl
  | ⟨1, _⟩ => show 0 + 1 * p.val = p.val; omega
  | ⟨2, _⟩ => show 0 + 1 * d.val = d.val; omega

/-! ## The blocks of the run

`V` is what the buffers hold when the kernel is entered and `c` the core; point `t` of the four works on rows
`4096 t … 4096 t + 4095`. -/

section Run

variable (V : (c : Dev nD) → (b : Ref sig .tc) → Buf (Elt Ideal) ((c : Thread nD τ).loc b)) (c : Dev nD)

theorem zero1 : (![0] : Fin 1 → Nat) = fun _ => 0 := funext fun a => by fin_cases a; rfl
theorem zero2 : (![0, 0] : Fin 2 → Nat) = fun _ => 0 := funext fun a => by fin_cases a <;> rfl

/-- The four index maps at point `t`: every window is at block `t` along the rows and at block 0 elsewhere. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val :=
  (by decide +kernel : ∀ t : Fin grid0.N, _)

theorem point_lt (t : Fin cfg0.N) : t.val < 4 := Nat.lt_of_lt_of_eq t.isLt N_0

/-- The argument's block at point `t` is rows `4096 t + p` of the argument. -/
theorem iblk_apply (t : Fin cfg0.N) (s : Fin 2) (p : Fin 4096) (d : Fin 128) :
    (iblk0 (F := Ideal) V c 0 t : Vec Ideal S2x4096x128 .f32) (ix3 s p d)
      = (V c main_arg0 : Cert.Contrast.SX.Idx → EReal) (ix3 s (rowAt t.val (point_lt t) p) d) := by
  obtain ⟨e0, e1, e2, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 3) * 2 + 1 * s.val = s.val; rw [e0]; omega
  | ⟨1, _⟩ => show win0_0.index t (1 : Fin 3) * 4096 + 1 * p.val = 4096 * t.val + p.val; rw [e1]; omega
  | ⟨2, _⟩ => show win0_0.index t (2 : Fin 3) * 128 + 1 * d.val = d.val; rw [e2]; omega

/-- What point `t` writes back of the column of exponentials is block `t` of `posArr` of the argument. -/
theorem flushed3_eq (t : Fin cfg0.N) :
    (dat0 (F := Ideal) V c).flushed 3 t
      = ((cfg0.win 3).blk t).view.read (Elt Ideal) (Cert.Contrast.posArr (V c main_arg0)) := by
  show (cfg0.win 3).cut (grid0.coords t) ((dat0 V c).after 3 t) = _
  rw [after0_3]
  unfold out0_3
  rw [View.canon_unit_zero zero1]
  refine funext fun (j : S4096.Idx) => ?_
  obtain ⟨p, rfl⟩ : ∃ p : Fin 4096, j = ix1 p := ⟨j 0, eq_ix1 j⟩
  obtain ⟨-, -, -, -, -, -, -, e⟩ := idx_facts t
  rw [View.read_apply]
  show k0_pay3 (View.ld (iblk0 V c 0 t) r0_0) (View.ld (iblk0 V c 0 t) r0_1) (ix1 p)
    = Cert.Contrast.posArr (V c main_arg0) (((cfg0.win 3).blk t).view.emb (ix1 p))
  have he : ((cfg0.win 3).blk t).view.emb (ix1 p) = (ix1 (rowAt t.val (point_lt t) p) : Cert.Contrast.SCol.Idx) := by
    refine funext fun a => Fin.ext ?_
    match a with
    | ⟨0, _⟩ => show win0_3.index t (0 : Fin 1) * 4096 + 1 * p.val = 4096 * t.val + p.val; rw [e]; omega
  rw [he]
  exact pos_of_block (View.ld (iblk0 V c 0 t) r0_0) (View.ld (iblk0 V c 0 t) r0_1) (V c main_arg0) t.val (point_lt t)
    (fun p d => (ld_half0 _ p d).trans (iblk_apply V c t 0 p d)) (fun p d => (ld_half1 _ p d).trans (iblk_apply V c t 1 p d)) p

/-- An entry of the column is in point `t`'s block iff its number is in `4096 t … 4096 t + 4095`. -/
theorem mem_blk3 (t : Fin cfg0.N) (i : S16384.Idx) :
    i ∈ ((cfg0.win 3).blk t).view.set
      ↔ ∀ a : Fin 1, win0_3.index t a * S4096.size a ≤ (i a).val ∧ (i a).val < win0_3.index t a * S4096.size a + S4096.size a := by
  show i ∈ ((View.whole main_v0_2).slice (win0_3.rect t)).set ↔ _
  rw [View.set_slice_whole, Rect.mem_set_unit]
  exact Iff.rfl

/-- Entry `r` of the column is in the block of point `r / 4096`. -/
theorem cover3 (i : S16384.Idx) :
    ∃ t : Fin cfg0.N, (cfg0.win 3).flush t = true ∧ i ∈ ((cfg0.win 3).blk t).view.set := by
  have hi : (i 0).val < 16384 := (i 0).isLt
  have hN : cfg0.N = 4 := N_0
  refine ⟨⟨(i 0).val / 4096, by rw [hN]; omega⟩, flush0_3 _, ?_⟩
  obtain ⟨-, -, -, -, -, -, -, e⟩ := idx_facts ⟨(i 0).val / 4096, by rw [hN]; omega⟩
  rw [mem_blk3]
  intro a
  match a with
  | ⟨0, _⟩ =>
    show win0_3.index _ (0 : Fin 1) * 4096 ≤ (i 0).val ∧ (i 0).val < win0_3.index _ (0 : Fin 1) * 4096 + 4096
    rw [e]
    show (i 0).val / 4096 * 4096 ≤ (i 0).val ∧ (i 0).val < (i 0).val / 4096 * 4096 + 4096
    omega

/-- THE COLUMN OF EXPONENTIALS after the kernel is `posArr` of the argument. -/
theorem arr3 : (dat0 (F := Ideal) V c).arrAt 3 cfg0.N = Cert.Contrast.posArr (V c main_arg0) :=
  (dat0 (F := Ideal) V c).arrAt_eq_of_cover 3 (Cert.Contrast.posArr (V c main_arg0)) (fun t _ => flushed3_eq V c t) cover3

/-- What point `t` writes back of the first divided half is block `t` of `unitArr` of the argument, half 0. -/
theorem flushed1_eq (t : Fin cfg0.N) :
    (dat0 (F := Ideal) V c).flushed 1 t
      = ((cfg0.win 1).blk t).view.read (Elt Ideal) (Cert.Contrast.unitArr (V c main_arg0) 0) := by
  show (cfg0.win 1).cut (grid0.coords t) ((dat0 V c).after 1 t) = _
  rw [after0_1]
  unfold out0_1
  rw [View.canon_unit_zero zero2]
  refine funext fun (j : S4096x128.Idx) => ?_
  obtain ⟨p, q, rfl⟩ : ∃ (p : Fin 4096) (q : Fin 128), j = ix2 p q := ⟨j 0, j 1, eq_ix2 j⟩
  obtain ⟨-, -, -, e0, e1, -⟩ := idx_facts t
  rw [View.read_apply]
  show k0_pay4 (View.ld (iblk0 V c 0 t) r0_0) (ix2 p q)
    = Cert.Contrast.unitArr (V c main_arg0) 0 (((cfg0.win 1).blk t).view.emb (ix2 p q))
  have he : ((cfg0.win 1).blk t).view.emb (ix2 p q)
      = (ix2 (rowAt t.val (point_lt t) p) q : Cert.Contrast.SRows.Idx) := by
    refine funext fun a => Fin.ext ?_
    match a with
    | ⟨0, _⟩ => show win0_1.index t (0 : Fin 2) * 4096 + 1 * p.val = 4096 * t.val + p.val; rw [e0]; omega
    | ⟨1, _⟩ => show win0_1.index t (1 : Fin 2) * 128 + 1 * q.val = q.val; rw [e1]; omega
  rw [he, pay4_apply]
  exact unit0_of_block (View.ld (iblk0 V c 0 t) r0_0) (V c main_arg0) t.val (point_lt t)
    (fun p d => (ld_half0 _ p d).trans (iblk_apply V c t 0 p d)) p q

/-- An entry of the first result is in point `t`'s block iff its row is in `4096 t … 4096 t + 4095`. -/
theorem mem_blk1 (t : Fin cfg0.N) (i : S16384x128.Idx) :
    i ∈ ((cfg0.win 1).blk t).view.set
      ↔ ∀ a : Fin 2, win0_1.index t a * S4096x128.size a ≤ (i a).val
          ∧ (i a).val < win0_1.index t a * S4096x128.size a + S4096x128.size a := by
  show i ∈ ((View.whole main_v0_0).slice (win0_1.rect t)).set ↔ _
  rw [View.set_slice_whole, Rect.mem_set_unit]
  exact Iff.rfl

/-- Row `r` of the first result is in the block of point `r / 4096`. -/
theorem cover1 (i : S16384x128.Idx) :
    ∃ t : Fin cfg0.N, (cfg0.win 1).flush t = true ∧ i ∈ ((cfg0.win 1).blk t).view.set := by
  have hi0 : (i 0).val < 16384 := (i 0).isLt
  have hi1 : (i 1).val < 128 := (i 1).isLt
  have hN : cfg0.N = 4 := N_0
  refine ⟨⟨(i 0).val / 4096, by rw [hN]; omega⟩, flush0_1 _, ?_⟩
  obtain ⟨-, -, -, e0, e1, -⟩ := idx_facts ⟨(i 0).val / 4096, by rw [hN]; omega⟩
  rw [mem_blk1]
  intro a
  match a with
  | ⟨0, _⟩ =>
    show win0_1.index _ (0 : Fin 2) * 4096 ≤ (i 0).val ∧ (i 0).val < win0_1.index _ (0 : Fin 2) * 4096 + 4096
    rw [e0]
    show (i 0).val / 4096 * 4096 ≤ (i 0).val ∧ (i 0).val < (i 0).val / 4096 * 4096 + 4096
    omega
  | ⟨1, _⟩ =>
    show win0_1.index _ (1 : Fin 2) * 128 ≤ (i 1).val ∧ (i 1).val < win0_1.index _ (1 : Fin 2) * 128 + 128
    rw [e1]
    omega

/-- THE FIRST RESULT after the kernel is the divided half 0 of the argument. -/
theorem arr1 : (dat0 (F := Ideal) V c).arrAt 1 cfg0.N = Cert.Contrast.unitArr (V c main_arg0) 0 :=
  (dat0 (F := Ideal) V c).arrAt_eq_of_cover 1 (Cert.Contrast.unitArr (V c main_arg0) 0) (fun t _ => flushed1_eq V c t) cover1

/-- What point `t` writes back of the second divided half is block `t` of `unitArr` of the argument, half 1. -/
theorem flushed2_eq (t : Fin cfg0.N) :
    (dat0 (F := Ideal) V c).flushed 2 t
      = ((cfg0.win 2).blk t).view.read (Elt Ideal) (Cert.Contrast.unitArr (V c main_arg0) 1) := by
  show (cfg0.win 2).cut (grid0.coords t) ((dat0 V c).after 2 t) = _
  rw [after0_2]
  unfold out0_2
  rw [View.canon_unit_zero zero2]
  refine funext fun (j : S4096x128.Idx) => ?_
  obtain ⟨p, q, rfl⟩ : ∃ (p : Fin 4096) (q : Fin 128), j = ix2 p q := ⟨j 0, j 1, eq_ix2 j⟩
  obtain ⟨-, -, -, -, -, e0, e1, -⟩ := idx_facts t
  rw [View.read_apply]
  show k0_pay5 (View.ld (iblk0 V c 0 t) r0_1) (ix2 p q)
    = Cert.Contrast.unitArr (V c main_arg0) 1 (((cfg0.win 2).blk t).view.emb (ix2 p q))
  have he : ((cfg0.win 2).blk t).view.emb (ix2 p q)
      = (ix2 (rowAt t.val (point_lt t) p) q : Cert.Contrast.SRows.Idx) := by
    refine funext fun a => Fin.ext ?_
    match a with
    | ⟨0, _⟩ => show win0_2.index t (0 : Fin 2) * 4096 + 1 * p.val = 4096 * t.val + p.val; rw [e0]; omega
    | ⟨1, _⟩ => show win0_2.index t (1 : Fin 2) * 128 + 1 * q.val = q.val; rw [e1]; omega
  rw [he, pay5_apply]
  exact unit1_of_block (View.ld (iblk0 V c 0 t) r0_1) (V c main_arg0) t.val (point_lt t)
    (fun p d => (ld_half1 _ p d).trans (iblk_apply V c t 1 p d)) p q

/-- An entry of the second result is in point `t`'s block iff its row is in `4096 t … 4096 t + 4095`. -/
theorem mem_blk2 (t : Fin cfg0.N) (i : S16384x128.Idx) :
    i ∈ ((cfg0.win 2).blk t).view.set
      ↔ ∀ a : Fin 2, win0_2.index t a * S4096x128.size a ≤ (i a).val
          ∧ (i a).val < win0_2.index t a * S4096x128.size a + S4096x128.size a := by
  show i ∈ ((View.whole main_v0_1).slice (win0_2.rect t)).set ↔ _
  rw [View.set_slice_whole, Rect.mem_set_unit]
  exact Iff.rfl

/-- Row `r` of the second result is in the block of point `r / 4096`. -/
theorem cover2 (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 4 := N_0
  refine ⟨⟨(i 0).val / 4096, by rw [hN]; omega⟩, flush0_2 _, ?_⟩
  obtain ⟨-, -, -, -, -, e0, e1, -⟩ := idx_facts ⟨(i 0).val / 4096, by rw [hN]; omega⟩
  rw [mem_blk2]
  intro a
  match a with
  | ⟨0, _⟩ =>
    show win0_2.index _ (0 : Fin 2) * 4096 ≤ (i 0).val ∧ (i 0).val < win0_2.index _ (0 : Fin 2) * 4096 + 4096
    rw [e0]
    show (i 0).val / 4096 * 4096 ≤ (i 0).val ∧ (i 0).val < (i 0).val / 4096 * 4096 + 4096
    omega
  | ⟨1, _⟩ =>
    show win0_2.index _ (1 : Fin 2) * 128 ≤ (i 1).val ∧ (i 1).val < win0_2.index _ (1 : Fin 2) * 128 + 128
    rw [e1]
    omega

/-- THE SECOND RESULT after the kernel is the divided half 1 of the argument. -/
theorem arr2 : (dat0 (F := Ideal) V c).arrAt 2 cfg0.N = Cert.Contrast.unitArr (V c main_arg0) 1 :=
  (dat0 (F := Ideal) V c).arrAt_eq_of_cover 2 (Cert.Contrast.unitArr (V c main_arg0) 1) (fun t _ => flushed2_eq V c t) cover2

end Run

end Cert.KernelIdeal.Norm

end
-- ==== Proof.TtlPayload.lean ====
/-
  The second kernel's arithmetic at one entry.

  One step of that kernel holds 1024 rows of the first divided half (`l`, 1024 × 128) and 2048 rows of the second (`r`, 2048 × 128), and an
  accumulator `acc` with one entry per row of `l`. It forms the 1024 × 2048 table of inner products `l_p · r_q` (a matrix product of `l`
  with the transpose of `r`, into a zero table), multiplies every entry by `invTemp`, exponentiates, sums each row of the table over its
  2048 columns, and adds that to the accumulator. So entry `p` of what it leaves is
  `acc p + ∑ q, exp ((∑ d, l p d * r q d) * invTemp)`.
  The first step of a row block stores a zero accumulator first; the zero word is the extended real `0`.
-/
import proofs.«177591_j62732292325787_1_alg».proof.Proof.Gen.KernelIdeal.Skeleton
import proofs.«177591_j62732292325787_1_alg».proof.Proof.Spec
import Idealize.ShloMosaic.Lib.Pipeline.Value
import Idealize.ShloMosaic.Lib.ValueIdx
import Idealize.ShloMosaic.PureOps.Ideal.Laws

noncomputable section

namespace Cert.KernelIdeal.Ttl

open Idealize.ShloMosaic Idealize.ShloMosaic.ValueIdx Cert.KernelIdeal Cert.KernelIdeal.Gen Cert.Contrast

/-- The named scale is the rational `invTemp`. -/
theorem named_invTemp : Named.named (F := Ideal) κ "inv_temp" (φ := .f32) 0x40A00000#32 = invTemp :=
  IdealRules.named_const.ideal_named_scalar _ _ _ _ rfl

/-- A sum along the columns of a 1024 × 2048 table, at row `p`. -/
theorem laneSum (v : FVec Ideal S1024x2048 .f32) (h : S1024x2048.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ q : Fin 2048, v (ix2 p q) :=
  (Ideal.multiReduction_add_single v 0x00000000#32 h hφ hacc (ix1 p)).trans
    (Finset.sum_congr rfl fun q _ => congrArg v (funext fun a => Fin.ext (by
      match a with
      | ⟨0, _⟩ => rfl
      | ⟨1, _⟩ => rfl)))

/-- The coordinates of the two operands' entries that meet in entry `j` of the product at contraction position `k`: the left one is
    row `j 0`, column `k`; the right one (of the 128 × 2048 transposed operand) is row `k`, column `j 1`. -/
theorem lhs_row (j : S1024x2048.Idx) (k : dot_S1024x128_S128x2048_S1024x2048_1_0_0_1_n_n.contr.Idx) :
    (dot_S1024x128_S128x2048_S1024x2048_1_0_0_1_n_n.lhsIdx j k 0).val = (j 0).val := by
  unfold DotDims.lhsIdx
  rw [dif_neg (show ¬(0 : Fin S1024x128.rank) ∈ dot_S1024x128_S128x2048_S1024x2048_1_0_0_1_n_n.lhsBatch by decide),
    dif_pos (show (0 : Fin S1024x128.rank) ∈ dot_S1024x128_S128x2048_S1024x2048_1_0_0_1_n_n.lhsNonContracting by decide)]
  rfl
theorem lhs_col (j : S1024x2048.Idx) (k : dot_S1024x128_S128x2048_S1024x2048_1_0_0_1_n_n.contr.Idx) :
    (dot_S1024x128_S128x2048_S1024x2048_1_0_0_1_n_n.lhsIdx j k 1).val = (k ⟨0, by decide⟩).val :=
  dot_S1024x128_S128x2048_S1024x2048_1_0_0_1_n_n.lhsIdx_val_of_single rfl j k
theorem rhs_row (j : S1024x2048.Idx) (k : dot_S1024x128_S128x2048_S1024x2048_1_0_0_1_n_n.contr.Idx) :
    (dot_S1024x128_S128x2048_S1024x2048_1_0_0_1_n_n.rhsIdx j k 0).val = (k ⟨0, by decide⟩).val :=
  dot_S1024x128_S128x2048_S1024x2048_1_0_0_1_n_n.rhsIdx_val_of_single rfl j k
theorem rhs_col (j : S1024x2048.Idx) (k : dot_S1024x128_S128x2048_S1024x2048_1_0_0_1_n_n.contr.Idx) :
    (dot_S1024x128_S128x2048_S1024x2048_1_0_0_1_n_n.rhsIdx j k 1).val = (j 1).val := by
  unfold DotDims.rhsIdx
  rw [dif_neg (show ¬(1 : Fin S128x2048.rank) ∈ dot_S1024x128_S128x2048_S1024x2048_1_0_0_1_n_n.rhsBatch by decide),
    dif_pos (show (1 : Fin S128x2048.rank) ∈ dot_S1024x128_S128x2048_S1024x2048_1_0_0_1_n_n.rhsNonContracting by decide)]
  rfl

/-- Entry `(p, q)` of the product of `l` with the transpose of `r`, into a zero table: the inner product of row `p` of `l` with row `q`
    of `r`. -/
theorem simTile (l : FVec Ideal S1024x128 .bf16) (r : FVec Ideal S2048x128 .bf16) (ht : S2048x128.Transposes [1, 0] S128x2048)
    (p : Fin 1024) (q : Fin 2048) :
    matmul (F := Ideal) dot_S1024x128_S128x2048_S1024x2048_1_0_0_1_n_n none l (transpose S128x2048 [1, 0] r ht)
        (constant S1024x2048 .f32 0x00000000#32) (ix2 p q)
      = ∑ d : Fin 128, l (ix2 p d) * r (ix2 q d) := by
  simp only [matmul]
  rw [Ideal.matmul_constant_zero_apply,
    ← Equiv.sum_comp (contrEquiv1 dot_S1024x128_S128x2048_S1024x2048_1_0_0_1_n_n 128 rfl rfl).symm]
  refine Finset.sum_congr rfl fun d _ => ?_
  have hk := contrEquiv1_symm_val dot_S1024x128_S128x2048_S1024x2048_1_0_0_1_n_n 128 rfl rfl d
  have el : dot_S1024x128_S128x2048_S1024x2048_1_0_0_1_n_n.lhsIdx (ix2 p q)
      ((contrEquiv1 dot_S1024x128_S128x2048_S1024x2048_1_0_0_1_n_n 128 rfl rfl).symm d) = ix2 p d :=
    funext fun a => Fin.ext (by
      match a with
      | ⟨0, _⟩ => exact lhs_row _ _
      | ⟨1, _⟩ => exact (lhs_col _ _).trans hk)
  rw [el]
  refine congrArg (l (ix2 p d) * ·) ?_
  exact transpose_apply [1, 0] r ht _ (ix2 q d) (fun b => by
    match b with
    | ⟨0, _⟩ => exact ((rhs_row _ _).trans hk).symm
    | ⟨1, _⟩ =>
      show q.val = _
      exact (rhs_col (ix2 p q) _).symm)

/-- The zero accumulator the first step of a row block stores. -/
theorem zeros_apply (p : Fin 1024) : k1_pay1 (F := Ideal) (ix1 p) = 0 := Ideal.ofBits_zero_f32

/-- Entry `p` of what one step leaves: the accumulator's entry plus the row's sum of exponentials. -/
theorem step_apply (l : FVec Ideal S1024x128 .bf16) (r : FVec Ideal S2048x128 .bf16) (acc : FVec Ideal S1024 .f32) (p : Fin 1024) :
    k1_pay2 l r acc (ix1 p)
      = acc (ix1 p) + ∑ q : Fin 2048, Ideal.exp ((∑ d : Fin 128, l (ix2 p d) * r (ix2 q d)) * invTemp) := by
  unfold k1_pay2
  dsimp only
  refine (addf_apply _ _ (ix1 p)).trans ?_
  refine congrArg₂ (· + ·) (congrFun (shapeCast_self acc _) (ix1 p)) ?_
  refine (laneSum _ _ _ _ p).trans (Finset.sum_congr rfl fun q _ => ?_)
  show Ideal.exp (_ * _) = _
  refine congrArg Ideal.exp (congrArg₂ (· * ·) ?_ named_invTemp)
  rw [shapeCast_self l, shapeCast_self r]
  exact simTile l r _ p q

end Cert.KernelIdeal.Ttl

end
-- ==== Proof.Tiles.lean ====
/-
  Rows taken in tiles.

  The second kernel walks the 16384 rows of the first divided half in 16 tiles of 1024 rows, and for each of them the 16384 rows of the
  second divided half in 8 tiles of 2048 rows. `rowAt n` is row number `n` (numbers are taken modulo 16384, so that no bound has to be
  carried; every number used is below 16384). `partTtl a b i n p` is the part of `ttlOf a b` at row `1024 i + p` that comes from the first
  `n` column tiles; with all 8 tiles it is `ttlOf a b` there (`partTtl_all`), because a sum over 16384 rows is the sum over 8 tiles of the
  sums over each tile's 2048 rows (`sum_tiles`: addition of extended reals is commutative and associative, nothing else is used).
-/
import proofs.«177591_j62732292325787_1_alg».proof.Proof.Spec
import Mathlib.Algebra.BigOperators.Fin
import Mathlib.Logic.Equiv.Fin.Basic

noncomputable section

namespace Cert.Contrast

open Idealize.ShloMosaic Idealize.ShloMosaic.ValueIdx

/-- Row number `n`. -/
def rowAt (n : Nat) : Fin 16384 := ⟨n % 16384, Nat.mod_lt _ (by decide)⟩

theorem rowAt_val (n : Nat) (h : n < 16384) : (rowAt n).val = n := Nat.mod_eq_of_lt h

theorem rowAt_fin (k : Fin 16384) : rowAt k.val = k := Fin.ext (Nat.mod_eq_of_lt k.isLt)

/-- A sum over 16384 rows, taken as 8 tiles of 2048 rows. -/
theorem sum_tiles {M : Type*} [AddCommMonoid M] (f : Fin 16384 → M) :
    ∑ k : Fin 16384, f k = ∑ s ∈ Finset.range 8, ∑ q : Fin 2048, f (rowAt (2048 * s + q.val)) := by
  rw [Finset.sum_range, ← Fintype.sum_prod_type']
  refine (Fintype.sum_equiv (finProdFinEquiv (m := 8) (n := 2048)) _ f (fun x => ?_)).symm
  refine congrArg f (Fin.ext ?_)
  have h1 := x.1.isLt
  have h2 := x.2.isLt
  show (2048 * x.1.val + x.2.val) % 16384 = x.2.val + 2048 * x.1.val
  omega

/-- The part of row `1024 i + p`'s denominator that comes from the first `n` column tiles. -/
def partTtl (a b : SRows.Idx → EReal) (i n : Nat) (p : Fin 1024) : EReal :=
  ∑ s ∈ Finset.range n, ∑ q : Fin 2048,
    Ideal.exp (rowDot a b (rowAt (1024 * i + p.val)) (rowAt (2048 * s + q.val)) * invTemp)

theorem partTtl_succ (a b : SRows.Idx → EReal) (i n : Nat) (p : Fin 1024) :
    partTtl a b i (n + 1) p = partTtl a b i n p
      + ∑ q : Fin 2048, Ideal.exp (rowDot a b (rowAt (1024 * i + p.val)) (rowAt (2048 * n + q.val)) * invTemp) :=
  Finset.sum_range_succ _ n

theorem partTtl_one (a b : SRows.Idx → EReal) (i : Nat) (p : Fin 1024) :
    partTtl a b i 1 p
      = ∑ q : Fin 2048, Ideal.exp (rowDot a b (rowAt (1024 * i + p.val)) (rowAt (2048 * 0 + q.val)) * invTemp) :=
  Finset.sum_range_one _

/-- All 8 tiles: the whole denominator of that row. -/
theorem partTtl_all (a b : SRows.Idx → EReal) (i : Nat) (p : Fin 1024) :
    partTtl a b i 8 p = ttlOf a b (ix1 (rowAt (1024 * i + p.val))) :=
  (sum_tiles fun k => Ideal.exp (rowDot a b (rowAt (1024 * i + p.val)) k * invTemp)).symm

end Cert.Contrast

end
-- ==== Proof.TtlArray.lean ====
/-
  What the second kernel leaves in its result array.

  The grid is 16 × 8: point `t` works on row tile `t / 8` (1024 rows of the first divided half `a`) and column tile `t % 8` (2048 rows of the
  second divided half `b`). The result block of a row tile stays in place over its 8 points: the first (`t % 8 = 0`) stores zeros and then
  adds its column tile's row sums, each later one adds its own, and the block is written back after the last (`t % 8 = 7`).
  So after point `t` entry `p` of the block is the part of the denominator of row `1024 (t / 8) + p` that comes from column tiles
  `0 … t % 8` (`acc_eq`, by induction on the point), after the last point of a row tile it is that row's whole denominator, and the 16 blocks
  written back cover the array: it ends holding `ttlOf a b`.
-/
import proofs.«177591_j62732292325787_1_alg».proof.Proof.Gen.KernelIdeal.Frame
import proofs.«177591_j62732292325787_1_alg».proof.Proof.TtlPayload
import proofs.«177591_j62732292325787_1_alg».proof.Proof.Tiles
import Idealize.ShloMosaic.Lib.Pipeline.Value
import Idealize.ShloMosaic.Lib.Tactic

noncomputable section

namespace Cert.KernelIdeal.Ttl

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen Cert.Contrast

theorem hz1 : (![0] : Fin 1 → Nat) = fun _ => 0 := funext fun a => by fin_cases a <;> rfl
theorem hz2 : (![0, 0] : Fin 2 → Nat) = fun _ => 0 := funext fun a => by fin_cases a <;> rfl

/-! ## What one step leaves in the result block, in each of its two cases -/

section Pieces

variable {F : FTy → Type} [FloatOps F] [Named F]

/-- A later step of a row tile: over the block's running contents `xo`, the step's one store. -/
theorem out_B (c : Dev nD) (i : grid1.Coords) (a2 : Memref sig .tc .vmem S1024x128 .bf16) (h2 : a2.IsWhole)
    (a3 : Memref sig .tc .vmem S2048x128 .bf16) (h3 : a3.IsWhole) (a4 : Memref sig .tc .vmem S1024 .f32) (h4 : a4.IsWhole)
    (hc : ¬cond1_0 i) (x0 : Vec F S1024x128 .bf16) (x1 : Vec F S2048x128 .bf16) (xo : Vec F S1024 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  rw [View.canon_unit_zero hz1]
  simp only [View.readAt_eq_ld, h2.read_unread, h3.read_unread, h4.read_unread, View.ld_unit_zero (S := S1024x128) hz2,
    View.ld_unit_zero (S := S2048x128) hz2, View.ld_unit_zero (S := S1024) hz1]

/-- The first step of a row tile: the zero block is stored, read back, and the step's store is made over it. -/
theorem out_A (c : Dev nD) (i : grid1.Coords) (a2 : Memref sig .tc .vmem S1024x128 .bf16) (h2 : a2.IsWhole)
    (a3 : Memref sig .tc .vmem S2048x128 .bf16) (h3 : a3.IsWhole) (a4 : Memref sig .tc .vmem S1024 .f32) (h4 : a4.IsWhole)
    (hc : cond1_0 i) (x0 : Vec F S1024x128 .bf16) (x1 : Vec F S2048x128 .bf16) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1024) hz1, View.readCov_unit_zero (S := S1024) _ hz1]
  simp only [View.readAt_eq_ld, h2.read_unread, h3.read_unread, View.ld_unit_zero (S := S1024x128) hz2,
    View.ld_unit_zero (S := S2048x128) hz2]

end Pieces

/-! ## The blocks a point reads -/

/-- Which block of each array point `t` works on: row tile `t / 8` of `a` and of the result, column tile `t % 8` of `b`. -/
theorem idx_facts : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 1) = t.val / 8 :=
  (by decide +kernel : ∀ t : Fin grid1.N, _)

variable (V : (c : Dev nD) → (b : Ref sig .tc) → Buf (Elt Ideal) ((c : Thread nD τ).loc b)) (c : Dev nD)

/-- Row `p` of the row tile is row `1024 (t / 8) + p` of `a`. -/
theorem lblk (t : Fin cfg1.N) (p : Fin 1024) (d : Fin 128) :
    iblk1 V c 0 t (ix2 p d) = V c main_v0_0 (ix2 (rowAt (1024 * (t.val / 8) + p.val)) d) := by
  obtain ⟨e0, e1, e2, e3, e4⟩ := idx_facts t
  have hN : t.val < 128 := lt_of_lt_of_eq t.isLt (show cfg1.N = 128 from N_1)
  have hp := p.isLt
  unfold iblk1
  rw [View.read_apply]
  show V c main_v0_0 _ = V c main_v0_0 _
  refine congrArg (V c main_v0_0) (funext fun a => Fin.ext ?_)
  match a with
  | ⟨0, _⟩ =>
    show win1_0.index t (0 : Fin 2) * 1024 + 1 * p.val = (1024 * (t.val / 8) + p.val) % 16384
    rw [e0]; omega
  | ⟨1, _⟩ =>
    show win1_0.index t (1 : Fin 2) * 128 + 1 * d.val = d.val
    rw [e1]; omega

/-- Row `q` of the column tile is row `2048 (t % 8) + q` of `b`. -/
theorem rblk (t : Fin cfg1.N) (q : Fin 2048) (d : Fin 128) :
    iblk1 V c 1 t (ix2 q d) = V c main_v0_1 (ix2 (rowAt (2048 * (t.val % 8) + q.val)) d) := by
  obtain ⟨e0, e1, e2, e3, e4⟩ := idx_facts t
  have hq := q.isLt
  unfold iblk1
  rw [View.read_apply]
  show V c main_v0_1 _ = V c main_v0_1 _
  refine congrArg (V c main_v0_1) (funext fun a => Fin.ext ?_)
  match a with
  | ⟨0, _⟩ =>
    show win1_1.index t (0 : Fin 2) * 2048 + 1 * q.val = (2048 * (t.val % 8) + q.val) % 16384
    rw [e2]; omega
  | ⟨1, _⟩ =>
    show win1_1.index t (1 : Fin 2) * 128 + 1 * d.val = d.val
    rw [e3]; omega

/-- What point `t` adds at row `p` of its row tile: the sum over its column tile's rows (`l`, `r` the two blocks the point reads). -/
theorem tile_term (t : Fin cfg1.N) (p : Fin 1024) (l : FVec Ideal S1024x128 .bf16) (r : FVec Ideal S2048x128 .bf16)
    (hl : l = iblk1 V c 0 t) (hr : r = iblk1 V c 1 t) :
    ∑ q : Fin 2048, Ideal.exp ((∑ d : Fin 128, l (ix2 p d) * r (ix2 q d)) * invTemp)
      = ∑ q : Fin 2048, Ideal.exp (rowDot (V c main_v0_0) (V c main_v0_1) (rowAt (1024 * (t.val / 8) + p.val))
          (rowAt (2048 * (t.val % 8) + q.val)) * invTemp) := by
  subst hl hr
  exact Finset.sum_congr rfl fun q _ => congrArg (fun z => Ideal.exp (z * invTemp))
    (Finset.sum_congr rfl fun d _ => by rw [lblk, rblk])

/-! ## The running contents of the result block -/

theorem acc_A (t : Fin cfg1.N) (h0 : t.val % 8 = 0) (p : Fin 1024) :
    outsAt1 V c t.val t.isLt (ix1 p) = partTtl (V c main_v0_0) (V c main_v0_1) (t.val / 8) (t.val % 8 + 1) p := by
  rw [outsAt1_A V c t h0, out_A, step_apply, zeros_apply, zero_add, tile_term V c t p _ _ rfl rfl, h0]
  exact (partTtl_one _ _ _ _).symm

theorem acc_B (t : Fin cfg1.N) (h0 : ¬t.val % 8 = 0) (p : Fin 1024)
    (ih : outsAt1 V c (t.val - 1) (Nat.lt_of_le_of_lt (Nat.sub_le _ _) t.isLt) (ix1 p)
      = partTtl (V c main_v0_0) (V c main_v0_1) ((t.val - 1) / 8) ((t.val - 1) % 8 + 1) p) :
    outsAt1 V c t.val t.isLt (ix1 p) = partTtl (V c main_v0_0) (V c main_v0_1) (t.val / 8) (t.val % 8 + 1) p := by
  rw [outsAt1_B V c t h0, out_B, step_apply, ih, tile_term V c t p _ _ rfl rfl]
  have e1 : (t.val - 1) / 8 = t.val / 8 := by omega
  have e2 : (t.val - 1) % 8 + 1 = t.val % 8 := by omega
  rw [e1, e2, ← partTtl_succ]

/-- After point `n`, entry `p` of the block: the part of row `1024 (n / 8) + p`'s denominator from column tiles `0 … n % 8`. -/
theorem acc_eq : ∀ (n : ℕ) (hn : n < cfg1.N) (p : Fin 1024),
    outsAt1 V c n hn (ix1 p) = partTtl (V c main_v0_0) (V c main_v0_1) (n / 8) (n % 8 + 1) p
  | 0, hn, p => acc_A V c ⟨0, hn⟩ rfl p
  | n + 1, hn, p => by
    by_cases h0 : (n + 1) % 8 = 0
    · exact acc_A V c ⟨n + 1, hn⟩ h0 p
    · exact acc_B V c ⟨n + 1, hn⟩ h0 p (acc_eq n (Nat.lt_of_succ_lt hn) p)

/-! ## The array -/

/-- The part of a result block that is written back is the whole block: the blocks do not overhang the array. -/
theorem cut_apply (t : Fin cfg1.N) (X : FVec Ideal S1024 .f32) (p : Fin 1024) :
    (cfg1.win 2).cut (grid1.coords t) X (ix1 p) = X (ix1 p) :=
  congrArg X (funext fun a => Fin.ext (by
    match a with
    | ⟨0, _⟩ => rfl))

/-- Entry `p` of point `t`'s block of an array `G` with one entry per row is entry `1024 (t / 8) + p` of `G`. -/
theorem oblk (t : Fin cfg1.N) (G : SCol.Idx → EReal) (p : Fin 1024) :
    ((cfg1.win 2).blk t).view.read (Elt Ideal) G (ix1 p) = G (ix1 (rowAt (1024 * (t.val / 8) + p.val))) := by
  obtain ⟨e0, e1, e2, e3, e4⟩ := idx_facts t
  have hN : t.val < 128 := lt_of_lt_of_eq t.isLt (show cfg1.N = 128 from N_1)
  have hp := p.isLt
  rw [View.read_apply]
  refine congrArg G (funext fun a => Fin.ext ?_)
  match a with
  | ⟨0, _⟩ =>
    show win1_2.index t (0 : Fin 1) * 1024 + 1 * p.val = (1024 * (t.val / 8) + p.val) % 16384
    rw [e4]; omega

/-- What a point writes back (the last of a row tile) is that row tile of `ttlOf a b`. -/
theorem flushed_eq (t : Fin cfg1.N) (hf : (cfg1.win 2).flush t = true) :
    (dat1 (F := Ideal) V c).flushed 2 t
      = ((cfg1.win 2).blk t).view.read (Elt Ideal) (ttlOf (V c main_v0_0) (V c main_v0_1)) := by
  have h7 : t.val % 8 = 7 := (flush1_2 t).mp hf
  obtain ⟨e0, e1, e2, e3, e4⟩ := idx_facts t
  have hN : t.val < 128 := lt_of_lt_of_eq t.isLt (show cfg1.N = 128 from N_1)
  show (cfg1.win 2).cut (grid1.coords t) ((dat1 (F := Ideal) V c).after 2 t) = _
  rw [after1_2]
  funext y
  obtain ⟨p, rfl⟩ : ∃ p : Fin 1024, y = ix1 p := ⟨y 0, eq_ix1 y⟩
  refine (cut_apply t _ p).trans ?_
  rw [acc_eq, h7, partTtl_all]
  exact (oblk t _ p).symm

/-- Every row lies in the block its row tile's last point writes back. -/
theorem cover (i : SCol.Idx) :
    ∃ t : Fin cfg1.N, (cfg1.win 2).flush t = true ∧ i ∈ ((cfg1.win 2).blk t).view.set := by
  have hi : (i 0).val < 16384 := (i 0).isLt
  have hlt : 8 * ((i 0).val / 1024) + 7 < cfg1.N := by rw [show cfg1.N = 128 from N_1]; omega
  obtain ⟨e0, e1, e2, e3, e4⟩ := idx_facts ⟨8 * ((i 0).val / 1024) + 7, hlt⟩
  refine ⟨⟨8 * ((i 0).val / 1024) + 7, hlt⟩, (flush1_2 _).mpr (by show (8 * ((i 0).val / 1024) + 7) % 8 = 7; omega), ?_⟩
  show i ∈ ((View.whole main_v1).slice (win1_2.rect ⟨8 * ((i 0).val / 1024) + 7, hlt⟩)).set
  rw [View.set_slice_whole, Rect.mem_set_unit]
  intro a
  match a with
  | ⟨0, _⟩ =>
    show win1_2.index ⟨8 * ((i 0).val / 1024) + 7, hlt⟩ (0 : Fin 1) * 1024 ≤ (i 0).val
      ∧ (i 0).val < win1_2.index ⟨8 * ((i 0).val / 1024) + 7, hlt⟩ (0 : Fin 1) * 1024 + 1024
    rw [e4]
    show (8 * ((i 0).val / 1024) + 7) / 8 * 1024 ≤ (i 0).val ∧ (i 0).val < (8 * ((i 0).val / 1024) + 7) / 8 * 1024 + 1024
    omega

/-- The result array after the run. -/
theorem final : (dat1 (F := Ideal) V c).arrAt 2 cfg1.N = ttlOf (V c main_v0_0) (V c main_v0_1) :=
  (dat1 (F := Ideal) V c).arrAt_eq_of_cover 2 (ttlOf (V c main_v0_0) (V c main_v0_1)) (flushed_eq V c) cover

end Cert.KernelIdeal.Ttl

end
-- ==== Proof.LossTail.lean ====
/-
  The loss from its two arrays.

  Both programs end the same way: the positive pair's term of each row is divided by the row's denominator, the logarithm is taken, the
  16384 logarithms are summed from zero, and the sum is negated. `lossOf pos ttl` is that scalar as a function of the two arrays; it is
  never opened: two programs whose arrays are equal have equal losses.
-/
import proofs.«177591_j62732292325787_1_alg».proof.Proof.Spec
import Idealize.ShloMosaic.PureOps.Contract
import Idealize.ShloMosaic.PureOps.Vector

noncomputable section

namespace Cert.Contrast

open Idealize.ShloMosaic

/-- The shape of a scalar. -/
abbrev SOne : Shape := ⟨0, ![]⟩

/-- Minus the sum over the rows of `log (pos / ttl)`. -/
def lossOf (pos ttl : FVec Ideal SCol .f32) (h : SCol.ReducesTo [0] SOne) (hu : 0 < SOne.numel) : FVec Ideal SOne .f32 :=
  Host.negf (F := Ideal) (Host.reduceAdd (F := Ideal) (Host.log (F := Ideal) (Host.divf (F := Ideal) pos ttl))
    (constant (F := Ideal) SOne .f32 0x00000000#32) h hu)

end Cert.Contrast

end
-- ==== Proof.KernelLoss.lean ====
/-
  The kernel program's result is the loss of the two arrays of the specification.

  After the first region its three result arrays hold the two divided halves of the argument and the positive pairs' terms; the second
  region reads the two divided halves as it finds them and leaves the denominators; no later operation writes any of these, so the five host
  operations that follow are the shared tail applied to `posArr x` and `ttlArr x` of the argument `x` as launched.
-/
import proofs.«177591_j62732292325787_1_alg».proof.Proof.KernelRun
import proofs.«177591_j62732292325787_1_alg».proof.Proof.Normalize
import proofs.«177591_j62732292325787_1_alg».proof.Proof.TtlArray
import proofs.«177591_j62732292325787_1_alg».proof.Proof.LossTail
import Idealize.ShloMosaic.Lib.StableHlo.Run

noncomputable section

namespace Cert.KernelIdeal.Loss

open Idealize.ShloMosaic Idealize.ShloMosaic.TcCoe Idealize.SL.Sem Idealize.ShloMosaic.StableHlo
open Cert.KernelIdeal Cert.KernelIdeal.Gen Cert.Contrast

variable (m : (ℓ : Loc nD τ sig) → Buf (Elt Ideal) ℓ) (ρ : Dev nD → PrngReg) (c : Dev nD)

/-- The first divided half, as the second region finds it. -/
theorem half0 : V1 m ρ c main_v0_0 = unitArr (m ((c : Thread nD τ).loc main_arg0)) 0 :=
  (W1_arr m ρ c 1).trans (Cert.KernelIdeal.Norm.arr1 (V0 m ρ) c)

/-- The second divided half, as the second region finds it. -/
theorem half1 : V1 m ρ c main_v0_1 = unitArr (m ((c : Thread nD τ).loc main_arg0)) 1 :=
  (W1_arr m ρ c 2).trans (Cert.KernelIdeal.Norm.arr2 (V0 m ρ) c)

/-- The positive pairs' terms after both regions: the second region does not touch them. -/
theorem pos_eq : W2 m ρ c (Proc.devRef .tc main_v0_2) = posArr (m ((c : Thread nD τ).loc main_arg0)) :=
  (W2_of_ne m ρ c main_v0_2 (by decide)).trans ((W1_arr m ρ c 3).trans (Cert.KernelIdeal.Norm.arr3 (V0 m ρ) c))

/-- The denominators after the second region. -/
theorem ttl_eq : W2 m ρ c (Proc.devRef .tc main_v1) = ttlArr (m ((c : Thread nD τ).loc main_arg0)) := by
  refine (W2_arr m ρ c 2).trans ((Cert.KernelIdeal.Ttl.final (V1 m ρ) c).trans ?_)
  rw [half0, half1]
  rfl

/-- The result buffer after the host operations. -/
theorem result_eq (h : SCol.ReducesTo [0] SOne) (hu : 0 < SOne.numel) :
    W3 m ρ c (Proc.devRef .tc main_v5)
      = lossOf (posArr (m ((c : Thread nD τ).loc main_arg0))) (ttlArr (m ((c : Thread nD τ).loc main_arg0))) h hu := by
  rw [← pos_eq m ρ c, ← ttl_eq m ρ c]
  show StableHlo.after hostOps2 (W2 m ρ c) (Proc.devRef .tc main_v5) = _
  after_results
  rfl

end Cert.KernelIdeal.Loss

end
-- ==== Proof.RefStages.lean ====
import proofs.«177591_j62732292325787_1_alg».proof.Proof.Gen.ReferenceIdeal.Read
import proofs.«177591_j62732292325787_1_alg».proof.Proof.Spec

/-!
  The reference program's stages, read as the specification's functions.

  The reference takes each half of the argument (a slice followed by a reshape to 16384 rows of 128 entries), divides every
  row by the larger of its Euclidean length and `eps`, and from the two divided halves forms, for every row `r`, the exponential
  of the inner product of the two rows numbered `r` divided by the temperature word, and the sum over every row `k` of the second
  half of the exponential of the inner product of row `r` of the first half with row `k` of the second, divided by the same word.

  Each stage is read at an index written by its coordinates. The composed index maps of the layout stages are identified
  with coordinate constructors: entry `(p, q)` of a reshaped half is entry `(s, p, q)` of the argument because
  `(p * 128 + q) / 128 % 16384 = p` and `(p * 128 + q) % 128 = q` for `q < 128`. A float sum is its initial value, the zero word,
  plus the sum of its terms; division by the temperature word is multiplication by `invTemp` (`div_temp`).
-/

noncomputable section

open Idealize.ShloMosaic Idealize.ShloMosaic.ValueIdx Cert.ReferenceIdeal Cert.ReferenceIdeal.Read Cert.Contrast

namespace Cert.ReferenceIdeal.RefValue

/-! ## The first half, divided row by row -/

/-- Entry `(p, q)` of the reshaped first slice is entry `(0, p, q)` of the argument. -/
theorem idx_half0 (p : Fin 16384) (q : Fin 128) :
    idx_main_v0 (idx_main_v1 (ix2 p q)) = ix3 (0 : Fin 2) p q := by
  funext a
  apply Fin.ext
  have hp := p.isLt
  have hq := q.isLt
  match a with
  | ⟨0, _⟩ => rfl
  | ⟨1, _⟩ => show (p.val * 128 + q.val) / 128 % 16384 = p.val; omega
  | ⟨2, _⟩ => show (p.val * 128 + q.val) % 128 = q.val; omega

/-- The reshaped first half at `(p, q)`. -/
theorem v1_at (x : SX.Idx → EReal) (p : Fin 16384) (q : Fin 128) :
    val_main_v1 (F := Ideal) x (ix2 p q) = x (ix3 (0 : Fin 2) p q) := by
  rw [val_main_v1_apply, val_main_v0_apply, idx_half0]

/-- The divisor at `(p, q)` is read from the row sum's term `k` at `(p, k)`: it depends on row `p` only. -/
theorem idx_row0 (p : Fin 16384) (q k : Fin 128) :
    idx_main_call0_v1 (idx_main_call0_v2 (idx_main_v5 (ix2 p q))) k = ix2 p k := by
  funext a
  apply Fin.ext
  match a with
  | ⟨0, _⟩ => rfl
  | ⟨1, _⟩ => rfl

/-- The broadcast divisor of the first half at `(p, q)` is `rowDen x 0 p`: the square root of the sum of the squares of
    row `p` (the sum's initial value is zero), or `eps` if that is larger. -/
theorem v5_at (x : SX.Idx → EReal) (p : Fin 16384) (q : Fin 128) :
    val_main_v5 (F := Ideal) x (ix2 p q) = rowDen x 0 p := by
  rw [val_main_v5_apply, val_main_v4_apply, val_main_v2_apply, val_main_call0_v2_apply,
    val_main_call0_v1_apply, val_main_v3_apply, val_main_cst_apply, val_main_call0_cst_apply]
  simp only [idx_row0, val_main_call0_v0_apply, v1_at, Ideal.maximumf_def, Ideal.hostUnary_sqrt_def,
    Ideal.ofBits_def, Ideal.mulf_def, Ideal.ofBits_zero_f32, zero_add]
  rfl

/-- The divided first half at `(p, q)`. -/
theorem v6_at (x : SX.Idx → EReal) (p : Fin 16384) (q : Fin 128) :
    val_main_v6 (F := Ideal) x (ix2 p q) = unitRow x 0 p q := by
  rw [val_main_v6_apply, v1_at, v5_at, Ideal.hostDivf_def]
  rfl

/-- The divided first half is `unitArr x 0`. -/
theorem v6_eq (x : SX.Idx → EReal) : val_main_v6 (F := Ideal) x = unitArr x 0 := by
  funext j
  obtain ⟨p, q, rfl⟩ : ∃ (p : Fin 16384) (q : Fin 128), j = ix2 p q := ⟨j 0, j 1, eq_ix2 j⟩
  rw [v6_at, unitArr_ix2]

/-! ## The second half, divided row by row -/

/-- Entry `(p, q)` of the reshaped second slice is entry `(1, p, q)` of the argument: the slice starts at half 1. -/
theorem idx_half1 (p : Fin 16384) (q : Fin 128) :
    idx_main_v7 (idx_main_v8 (ix2 p q)) = ix3 (1 : Fin 2) p q := by
  funext a
  apply Fin.ext
  have hp := p.isLt
  have hq := q.isLt
  match a with
  | ⟨0, _⟩ => rfl
  | ⟨1, _⟩ => show (p.val * 128 + q.val) / 128 % 16384 = p.val; omega
  | ⟨2, _⟩ => show (p.val * 128 + q.val) % 128 = q.val; omega

/-- The reshaped second half at `(p, q)`. -/
theorem v8_at (x : SX.Idx → EReal) (p : Fin 16384) (q : Fin 128) :
    val_main_v8 (F := Ideal) x (ix2 p q) = x (ix3 (1 : Fin 2) p q) := by
  rw [val_main_v8_apply, val_main_v7_apply, idx_half1]

/-- The second half's divisor at `(p, q)` is read from the row sum's term `k` at `(p, k)`. -/
theorem idx_row1 (p : Fin 16384) (q k : Fin 128) :
    idx_main_call1_v1 (idx_main_call1_v2 (idx_main_v12 (ix2 p q))) k = ix2 p k := by
  funext a
  apply Fin.ext
  match a with
  | ⟨0, _⟩ => rfl
  | ⟨1, _⟩ => rfl

/-- The broadcast divisor of the second half at `(p, q)` is `rowDen x 1 p`. -/
theorem v12_at (x : SX.Idx → EReal) (p : Fin 16384) (q : Fin 128) :
    val_main_v12 (F := Ideal) x (ix2 p q) = rowDen x 1 p := by
  rw [val_main_v12_apply, val_main_v11_apply, val_main_v9_apply, val_main_call1_v2_apply,
    val_main_call1_v1_apply, val_main_v10_apply, val_main_cst_0_apply, val_main_call1_cst_apply]
  simp only [idx_row1, val_main_call1_v0_apply, v8_at, Ideal.maximumf_def, Ideal.hostUnary_sqrt_def,
    Ideal.ofBits_def, Ideal.mulf_def, Ideal.ofBits_zero_f32, zero_add]
  rfl

/-- The divided second half at `(p, q)`. -/
theorem v13_at (x : SX.Idx → EReal) (p : Fin 16384) (q : Fin 128) :
    val_main_v13 (F := Ideal) x (ix2 p q) = unitRow x 1 p q := by
  rw [val_main_v13_apply, v8_at, v12_at, Ideal.hostDivf_def]
  rfl

/-- The divided second half is `unitArr x 1`. -/
theorem v13_eq (x : SX.Idx → EReal) : val_main_v13 (F := Ideal) x = unitArr x 1 := by
  funext j
  obtain ⟨p, q, rfl⟩ : ∃ (p : Fin 16384) (q : Fin 128), j = ix2 p q := ⟨j 0, j 1, eq_ix2 j⟩
  rw [v13_at, unitArr_ix2]

/-! ## The positive pair's term -/

/-- Term `k` of row `r`'s sum of products is read at `(r, k)`. -/
theorem idx_pos (r : Fin 16384) (k : Fin 128) : idx_main_v15 (ix1 r) k = ix2 r k := by
  funext a
  apply Fin.ext
  match a with
  | ⟨0, _⟩ => rfl
  | ⟨1, _⟩ => rfl

/-- The exponential of the inner product of the two rows numbered `r`, divided by the temperature word: the sum of
    products starts from zero, and dividing by the word is multiplying by `invTemp`. -/
theorem v18_at (x : SX.Idx → EReal) (r : Fin 16384) :
    val_main_v18 (F := Ideal) x (ix1 r)
      = Ideal.exp (rowDot (unitArr x 0) (unitArr x 1) r r * invTemp) := by
  rw [val_main_v18_apply, val_main_v17_apply, val_main_v15_apply, val_main_v16_apply,
    val_main_cst_2_apply, val_main_cst_1_apply]
  simp only [idx_pos, val_main_v14_apply, v6_eq, v13_eq, Ideal.hostUnary_exp_def, Ideal.hostDivf_def,
    Ideal.ofBits_def, Ideal.mulf_def, Ideal.ofBits_zero_f32, zero_add, div_temp]
  rfl

/-- The positive pair's terms are `posArr x`. -/
theorem v18_eq (x : SX.Idx → EReal) : val_main_v18 (F := Ideal) x = posArr x := by
  funext j
  obtain ⟨r, rfl⟩ : ∃ r : Fin 16384, j = ix1 r := ⟨j 0, eq_ix1 j⟩
  rw [v18_at, posArr, posOf_ix1]

/-! ## The denominators -/

/-- Term `k` of row `r`'s sum of exponentials is read at `(r, k)` of the matrix of inner products … -/
theorem idx_ttl (r k : Fin 16384) : idx_main_v23 (ix1 r) k = ix2 r k := by
  funext a
  apply Fin.ext
  match a with
  | ⟨0, _⟩ => rfl
  | ⟨1, _⟩ => rfl

/-- … whose entry `(r, k)` contracts entry `d` of row `r` of the first half … -/
theorem idx_dotl (r k : Fin 16384) (d : Fin 128) : lidx_main_v19 (ix2 r k) d = ix2 r d := by
  funext a
  apply Fin.ext
  match a with
  | ⟨0, _⟩ => rfl
  | ⟨1, _⟩ => rfl

/-- … with entry `d` of row `k` of the second half. -/
theorem idx_dotr (r k : Fin 16384) (d : Fin 128) : ridx_main_v19 (ix2 r k) d = ix2 k d := by
  funext a
  apply Fin.ext
  match a with
  | ⟨0, _⟩ => rfl
  | ⟨1, _⟩ => rfl

/-- Entry `(r, k)` of the matrix of inner products is `rowDot` of the two divided halves at `r`, `k`. -/
theorem v19_at (x : SX.Idx → EReal) (r k : Fin 16384) :
    val_main_v19 (F := Ideal) x (ix2 r k) = rowDot (unitArr x 0) (unitArr x 1) r k := by
  rw [val_main_v19_apply]
  simp only [idx_dotl, idx_dotr, v6_eq, v13_eq]
  rfl

/-- Entry `(r, k)` of the matrix of exponentials. -/
theorem v22_at (x : SX.Idx → EReal) (r k : Fin 16384) :
    val_main_v22 (F := Ideal) x (ix2 r k)
      = Ideal.exp (rowDot (unitArr x 0) (unitArr x 1) r k * invTemp) := by
  rw [val_main_v22_apply, val_main_v21_apply, v19_at, val_main_v20_apply, val_main_cst_3_apply,
    Ideal.hostUnary_exp_def, Ideal.hostDivf_def, Ideal.ofBits_def, div_temp]

/-- Row `r`'s denominator: zero plus the sum over every row `k` of the second half. -/
theorem v23_at (x : SX.Idx → EReal) (r : Fin 16384) :
    val_main_v23 (F := Ideal) x (ix1 r)
      = ∑ k : Fin 16384, Ideal.exp (rowDot (unitArr x 0) (unitArr x 1) r k * invTemp) := by
  rw [val_main_v23_apply, val_main_cst_4_apply, Ideal.ofBits_def, Ideal.ofBits_zero_f32, zero_add]
  exact Finset.sum_congr rfl fun k _ => by rw [idx_ttl, v22_at]

/-- The denominators are `ttlArr x`. -/
theorem v23_eq (x : SX.Idx → EReal) : val_main_v23 (F := Ideal) x = ttlArr x := by
  funext j
  obtain ⟨r, rfl⟩ : ∃ r : Fin 16384, j = ix1 r := ⟨j 0, eq_ix1 j⟩
  rw [v23_at, ttlArr, ttlOf_ix1]

end Cert.ReferenceIdeal.RefValue

end
-- ==== Proof.RefLoss.lean ====
/-
  The reference's result is the loss of the two arrays of the specification.

  Its last four operations are the shared tail applied to its stage 18 (the positive pairs' terms) and its stage 23 (the denominators);
  those two stages are `posArr x` and `ttlArr x` of the argument.
-/
import proofs.«177591_j62732292325787_1_alg».proof.Proof.RefStages
import proofs.«177591_j62732292325787_1_alg».proof.Proof.LossTail

noncomputable section

namespace Cert.ReferenceIdeal.RefValue

open Idealize.ShloMosaic Cert.ReferenceIdeal Cert.ReferenceIdeal.Read Cert.Contrast

theorem result_eq (x : SX.Idx → EReal) (h : SCol.ReducesTo [0] SOne) (hu : 0 < SOne.numel) :
    val_main_v27 (F := Ideal) x = lossOf (posArr x) (ttlArr x) h hu := by
  rw [← v18_eq x, ← v23_eq x]
  rfl

end Cert.ReferenceIdeal.RefValue

end
-- ==== Proof.lean ====
/-
  A contrastive loss computed by two tiled kernels equals its plain reference, over the extended reals.

  The argument `x` holds two halves of 16384 rows of 128 entries. Each row is divided by the larger of its Euclidean length and a small
  constant; call the divided halves `a` and `b`. With `s(r, k)` the inner product of row `r` of `a` with row `k` of `b`, the loss is
  `− ∑ r, log (exp (s(r, r) · c) / ∑ k, exp (s(r, k) · c))`.

  The reference divides each inner product by the single-precision number nearest 0.2, which is exactly 13421773/67108864. The kernels
  multiply by the reciprocal their source spells, `1.0 / 0.2`, stored as the single-precision number 5; the claim reads that constant as the
  exact reciprocal `c = 67108864/13421773` of the reference's divisor (the two `preserves` conjuncts say so, one per kernel). Dividing an
  extended real by a nonzero real is multiplying it by the reciprocal, so the two programs apply the same scale.

  The first kernel divides the rows, 4096 rows of both halves per step, and forms the terms `exp (s(r, r) · c)`. The second walks the
  16384 × 16384 table of inner products in tiles of 1024 × 2048, summing `exp (s(r, k) · c)` along each row tile by tile into a block that
  is zeroed at the first tile and written back after the eighth: a sum over 16384 columns taken as eight sums over 2048, which is the same
  extended real because addition is commutative and associative. Narrowing the divided rows to a shorter float format between the two
  kernels is the identity on exact values, and a matrix product into a zero table is the table of inner products. The last five host
  operations (divide, logarithm, sum, negate) are the reference's last four operations on the same two arrays.

  No step needs the inputs to be finite: no product is distributed over a sum and nothing is cancelled.
-/
import proofs.«177591_j62732292325787_1_alg».proof.Defs
import proofs.«177591_j62732292325787_1_alg».proof.Proof.Gen.Kernel
import proofs.«177591_j62732292325787_1_alg».proof.Proof.Gen.Kernel.Frame
import proofs.«177591_j62732292325787_1_alg».proof.Proof.Gen.KernelIdeal
import proofs.«177591_j62732292325787_1_alg».proof.Proof.Gen.KernelIdeal.Frame
import proofs.«177591_j62732292325787_1_alg».proof.Proof.Gen.ReferenceIdeal
import proofs.«177591_j62732292325787_1_alg».proof.Proof.Gen.ReferenceIdeal.Run
import proofs.«177591_j62732292325787_1_alg».proof.Proof.Gen.ReferenceIdeal.Read
import proofs.«177591_j62732292325787_1_alg».proof.Proof.Gen.Pre_finite_inputs
import proofs.«177591_j62732292325787_1_alg».proof.Proof.KernelRun
import proofs.«177591_j62732292325787_1_alg».proof.Proof.KernelLoss
import proofs.«177591_j62732292325787_1_alg».proof.Proof.RefLoss

noncomputable section

namespace Cert.Proof

open Idealize.ShloMosaic Idealize.ShloMosaic.TcCoe Idealize.SL.Sem Cert.Contrast

/-- The three programs run to the end, nothing faulting, with the argument unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Each kernel's scale constant denotes the exact reciprocal 67108864/13421773. -/
theorem preserves : Cert.preserves_Kernel_KernelIdeal :=
  ⟨IdealRules.named_const.statement Cert.KernelIdeal.κ "inv_temp" .f32 0x40A00000#32 ((67108864 / 13421773 : ℝ) : EReal) rfl,
   IdealRules.named_const.statement Cert.KernelIdeal.κ "inv_temp" .f32 0x40A00000#32 ((67108864 / 13421773 : ℝ) : EReal) rfl⟩

/-- From memories that agree on the argument both programs end with the loss of the argument's two arrays. -/
theorem algebraic : Cert.algebraic_KernelIdeal_ReferenceIdeal := by
  intro m ρ m' ρ' _ hagree
  refine ⟨fun c => lossOf (posArr (m ((c.tc : Thread Cert.KernelIdeal.nD Cert.KernelIdeal.τ).loc Cert.KernelIdeal.main_arg0)))
      (ttlArr (m ((c.tc : Thread Cert.KernelIdeal.nD Cert.KernelIdeal.τ).loc Cert.KernelIdeal.main_arg0))) (by decide) (by decide), ?_, ?_⟩
  · exact (θ_run Cert.KernelIdeal.defs _ _).mono
      (fun _ h c => ⟨(h c).1.trans (Cert.KernelIdeal.Loss.result_eq m ρ c _ _), (h c).2⟩)
      (Cert.KernelIdeal.Loss.run_named (F := Ideal) m ρ)
  · refine (θ_run Cert.ReferenceIdeal.defs _ _).mono (fun _ h c => ⟨(h c).1.trans ?_, (h c).2⟩)
      (Cert.ReferenceIdeal.Value.run (F := Ideal) m' ρ')
    rw [hagree c]
    exact (Cert.ReferenceIdeal.Read.val_main_v27_eq _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
